-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4x4096x4096 .f32) (main_arg1 : FVec F S64x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S512x4096 : Shape := ⟨2, ![512, 4096]⟩
abbrev S1x4096 : Shape := ⟨2, ![1, 4096]⟩
abbrev S4096 : Shape := ⟨1, ![4096]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S16384x4096, .f32⟩
  | .hbm, ⟨4, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  inb_S64x4096_S1x4096_0_0 : ∀ a, (![0, 0] : Fin 2 → Nat) a + S1x4096.size a ≤ S64x4096.size a
  h_S1x4096 : 0 < S1x4096.numel
  shapeCasts_S1x4096_S4096 : S1x4096.ShapeCasts S4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S4096_S1x4096 : S4096.ShapeCasts S1x4096
  broadcasts_S1x4096_S512x4096 : S1x4096.Broadcasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S64x4096 : Shape := ⟨2, ![64, 4096]⟩
abbrev S_ : Shape := ⟨0, ![]⟩
abbrev S1 : Shape := ⟨1, ![1]⟩
abbrev S4096 : Shape := ⟨1, ![4096]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S1, .i1⟩
  | .hbm, ⟨14, _⟩ => ⟨S1, .i1⟩
  | .hbm, ⟨15, _⟩ => ⟨S_, .i1⟩
  | .hbm, ⟨16, _⟩ => ⟨S_, .i1⟩
  | .hbm, ⟨17, _⟩ => ⟨S4096, .f32⟩
  | .hbm, ⟨18, _⟩ => ⟨S4096, .i1⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S1x1x4096, .f32⟩
  | .hbm, ⟨26, _⟩ => ⟨S4x4096x4096, .f32⟩
  | .hbm, ⟨27, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_c_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_c_1 : Ref sig .tc := ⟨.hbm, 9, rfl⟩
abbrev main_call0_c_2 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_3 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst : Ref sig .tc := ⟨.hbm, 19, rfl⟩
abbrev main_call0_v11 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩

abbrev nD : Nat := 1
abbrev τ : Topo := Topo.v7x

variable {F : FTy → Type} [FloatOps F]

class Facts₀ : Prop where
  bcast_S_S1 : S_.BroadcastsInDim S1 (![] : Fin 0 → Fin S1.rank)
  reducesTo_S1_S_d0 : S1.ReducesTo [0] S_
  h_S_ : 0 < S_.numel
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  gather_S64x4096_S1_S4096_0_0_n_n_0_0_14096_wf : GatherDims.WF S64x4096 S1 S4096 [0] [0] [] [0] [] 0 ![1, 4096]

variable [Facts₀]

def gather_S64x4096_S1_S4096_0_0_n_n_0_0_14096 : GatherDims S64x4096 S1 S4096 where
  offsetDims := [0]
  collapsedSliceDims := [0]
  operandBatchingDims := []
  startIndicesBatchingDims := []
  startIndexMap := [0]
  indexVectorDim := 0
  sliceSizes := ![1, 4096]
  wf := gather_S64x4096_S1_S4096_0_0_n_n_0_0_14096_wf

class Facts : Prop extends Facts₀ where

variable [Facts]
-- ==== Proof.Spec.lean ====
/-
  The specification: what both programs compute, as one function of the two argument arrays.

  For `x : [4, 4096, 4096]` and a table `emb : [64, 4096]`, the result at `(b, s, e)` is
  `x[b, s, e] + emb[0, e] · one`, where `one` is the value the 32-bit pattern `0x3F800000` denotes.  Both programs
  carry that same pattern, so it is never evaluated: the two sides are one expression of the extended reals, and no
  algebraic law (and so no finiteness of the inputs) is needed to join them.

  `addRowFlat` is the same function on the array with its two leading axes merged, `[16384, 4096]`: the kernel works
  on that layout, row `r = 4096·b + s`.
-/
import Idealize.ShloMosaic.PureOps.Ideal
import Idealize.ShloMosaic.Lib.ValueIdx

noncomputable section

namespace Cert.AddRow

open Idealize.ShloMosaic Idealize.ShloMosaic.ValueIdx

/-- The constant both programs multiply the selected row by. -/
abbrev one : EReal := Ideal.ofBits .f32 0x3F800000#32

/-- Row 0 of the table at column `e`, times the constant. -/
def row (emb : (⟨2, ![64, 4096]⟩ : Shape).Idx → EReal) (e : Fin 4096) : EReal :=
  emb (ix2 (0 : Fin 64) e) * one

/-- THE RESULT: `x[b, s, e] + emb[0, e] · one`. -/
def addRow (x : (⟨3, ![4, 4096, 4096]⟩ : Shape).Idx → EReal) (emb : (⟨2, ![64, 4096]⟩ : Shape).Idx → EReal) :
    (⟨3, ![4, 4096, 4096]⟩ : Shape).Idx → EReal :=
  fun i => x i + row emb (i 2)

/-- The same on the merged layout: `xf[r, e] + emb[0, e] · one`. -/
def addRowFlat (xf : (⟨2, ![16384, 4096]⟩ : Shape).Idx → EReal) (emb : (⟨2, ![64, 4096]⟩ : Shape).Idx → EReal) :
    (⟨2, ![16384, 4096]⟩ : Shape).Idx → EReal :=
  fun i => xf i + row emb (i 1)

end Cert.AddRow

end
-- ==== Proof.Payload.lean ====
/-
  The kernel body's arithmetic at an index.

  The body loads row 0 of the table's block as a `[1, 4096]` vector, casts it to `[4096]`, multiplies by the splat
  constant, casts back to `[1, 4096]`, broadcasts over the 512 rows of the `x` block and adds.  The casts only move
  the unit axis and the broadcast repeats the row, so at `(p, q)` the stored value is
  `xblock[p, q] + tableblock[0, q] · one`.
-/
import proofs.«117584_g19000935317804_cont_8to1_1178_1_alg».proof.Proof.Gen.KernelIdeal.Skeleton
import proofs.«117584_g19000935317804_cont_8to1_1178_1_alg».proof.Proof.Spec
import Idealize.ShloMosaic.Lib.Pipeline.Value
import Idealize.ShloMosaic.Lib.ValueIdx

noncomputable section

namespace Cert.KernelIdeal.Payload

open Cert.KernelIdeal Cert.KernelIdeal.Gen Cert.AddRow
open Idealize.ShloMosaic Idealize.ShloMosaic.ValueIdx

/-- A one-row block `[1, 4096]` cast to a vector `[4096]`, at column `q`: the row's entry at `q`. -/
theorem rowToVec_apply (v : FVec Ideal S1x4096 .f32) (q : Fin 4096) :
    shapeCast S4096 v shapeCasts_S1x4096_S4096 (ix1 q) = v (ix2 (0 : Fin 1) q) :=
  shapeCast_apply v _ (ix1 q) (ix2 (0 : Fin 1) q) (by
    rw [Shape.rowMajor_val_two, Shape.rowMajor_val_one]
    show 0 * 4096 + q.val = q.val
    omega)

/-- A vector `[4096]` cast to a one-row block `[1, 4096]`, at `(r, q)`: the vector's entry at `q`. -/
theorem vecToRow_apply (v : FVec Ideal S4096 .f32) (r : Fin 1) (q : Fin 4096) :
    shapeCast S1x4096 v shapeCasts_S4096_S1x4096 (ix2 r q) = v (ix1 q) :=
  shapeCast_apply v _ (ix2 r q) (ix1 q) (by
    rw [Shape.rowMajor_val_two, Shape.rowMajor_val_one]
    show q.val = r.val * 4096 + q.val
    have := r.isLt
    omega)

/-- A one-row block broadcast over 512 rows, at `(p, q)`: the row's entry at `q`. -/
theorem rowBroadcast_apply (v : FVec Ideal S1x4096 .f32) (p : Fin 512) (q : Fin 4096) :
    broadcastTo S512x4096 v broadcasts_S1x4096_S512x4096 (ix2 p q) = v (ix2 (0 : Fin 1) q) :=
  broadcastTo_apply v _ (ix2 p q) (ix2 (0 : Fin 1) q) (fun a => by match a with | ⟨0, _⟩ => rfl | ⟨1, _⟩ => rfl)

/-- THE STORED VALUE AT `(p, q)`: the `x` block's entry plus row 0 of the table block at `q` times the constant. -/
theorem pay_apply (v0 : Vec Ideal S1x4096 .f32) (v4 : Vec Ideal S512x4096 .f32) (p : Fin 512) (q : Fin 4096) :
    k0_pay1 (F := Ideal) v0 v4 (ix2 p q) = v4 (ix2 p q) + v0 (ix2 (0 : Fin 1) q) * one := by
  unfold k0_pay1
  rw [addf_apply, shapeCast_self, rowBroadcast_apply, vecToRow_apply, mulf_apply, rowToVec_apply, broadcast_apply]
  rfl

end Cert.KernelIdeal.Payload

end
-- ==== Proof.Blocks.lean ====
/-
  From blocks to the array: what the region leaves in its output array.

  The grid has 32 points.  Point `t` is handed rows `[512·t, 512·t + 512)` of the merged input `xf : [16384, 4096]`
  and, at every point, the whole table `[64, 4096]`; it writes back rows `[512·t, 512·t + 512)` of the output.  What it
  writes at `(p, q)` of its block is `xblock[p, q] + table[0, q] · one`, and `xblock[p, q]` is `xf[512·t + p, q]`: the
  written block is the block of ONE whole-array function, `addRowFlat xf table`.  The 32 row blocks tile the 16384 rows
  (row `r` lies in block `r / 512`), so after the region the output array IS that function.
-/
import proofs.«117584_g19000935317804_cont_8to1_1178_1_alg».proof.Proof.Gen.KernelIdeal.Frame
import proofs.«117584_g19000935317804_cont_8to1_1178_1_alg».proof.Proof.Payload
import Idealize.ShloMosaic.Lib.Pipeline.Value

noncomputable section

namespace Cert.KernelIdeal.Blocks

open Cert.KernelIdeal Cert.KernelIdeal.Gen Cert.KernelIdeal.Payload Cert.AddRow
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem offset_zero : (![0, 0] : Fin 2 → Nat) = fun _ => 0 := funext fun a => by fin_cases a <;> rfl

/-- The table's row as the body loads it — the `[1, 4096]` rectangle at the table block's origin — at column `q`. -/
theorem tableRow_apply (x1 : Vec Ideal S64x4096 .f32) (q : Fin 4096) :
    View.ld x1 r0_0 (ix2 (0 : Fin 1) q) = x1 (ix2 (0 : Fin 64) q) := by
  show x1 (r0_0.idx (ix2 (0 : Fin 1) q)) = _
  refine congrArg x1 (funext fun a => Fin.ext ?_)
  match a with
  | ⟨0, _⟩ => rfl
  | ⟨1, _⟩ => show 0 + 1 * q.val = q.val; omega

/-- WHAT THE BODY LEAVES in the output block, from its two input blocks, at block index `j`:
    the `x` block's entry plus row 0 of the table block at `j`'s column, times the constant. -/
theorem stored_apply (x0 : Vec Ideal S512x4096 .f32) (x1 : Vec Ideal S64x4096 .f32) (j : S512x4096.Idx) :
    out0_2 x0 x1 j = x0 j + x1 (ix2 (0 : Fin 64) (j 1)) * one := by
  obtain ⟨p, q, rfl⟩ : ∃ (p : Fin 512) (q : Fin 4096), j = ix2 p q := ⟨j 0, j 1, eq_ix2 j⟩
  unfold out0_2
  rw [View.canon_unit_zero offset_zero]
  simp only [View.ld_unit_zero (S := S512x4096) offset_zero]
  rw [pay_apply, tableRow_apply]

/-- The printed index maps, decided over the 32 points: the `x` window moves with the output window along the rows,
    the table window stays at the origin, and no window moves along the columns. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 32 row blocks is some point's output block. -/
theorem block_onto : ∀ q0 : Fin 32, ∃ t : Fin cfg0.N, win0_2.index t = ![q0.val, 0] :=
  (by decide +kernel : ∀ q0 : Fin 32, ∃ t : Fin grid0.N, win0_2.index t = ![q0.val, 0])

/-- WHAT POINT `t` WRITES BACK is block `t` of `addRowFlat` of the merged input and the table as the region finds them. -/
theorem flushed_eq (c : Dev nD) (t : Fin cfg0.N) :
    (dats m 0 c).flushed 2 t
      = ((cfg0.win 2).blk t).view.read (Elt Ideal) (addRowFlat (V m c main_v0) (V m c main_arg1)) := by
  show (cfg0.win 2).cut (grid0.coords t) ((dats m 0 c).after 2 t) = _
  rw [after0_2]
  obtain ⟨e0, e1, e2, e3, e4⟩ := index_facts t
  funext j
  show out0_2 (iblk m c 0 t) (iblk m c 1 t) j
    = addRowFlat (V m c main_v0) (V m c main_arg1) (((cfg0.win 2).blk t).view.emb j)
  refine (stored_apply (iblk m c 0 t) (iblk m c 1 t) j).trans ?_
  unfold addRowFlat row iblk
  rw [View.read_apply, View.read_apply]
  have h0 : ((cfg0.win 0).blk t).view.emb j = ((cfg0.win 2).blk t).view.emb j := by
    funext a; apply Fin.ext
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 4096 + 1 * (j 1).val = win0_2.index t (1 : Fin 2) * 4096 + 1 * (j 1).val
      omega
  have h1 : ((cfg0.win 1).blk t).view.emb (ix2 (0 : Fin 64) (j 1))
      = ix2 (0 : Fin 64) ((((cfg0.win 2).blk t).view.emb j) 1) := by
    funext a; apply Fin.ext
    match a with
    | ⟨0, _⟩ =>
      show win0_1.index t (0 : Fin 2) * 64 + 1 * 0 = 0
      omega
    | ⟨1, _⟩ =>
      show win0_1.index t (1 : Fin 2) * 4096 + 1 * (j 1).val = win0_2.index t (1 : Fin 2) * 4096 + 1 * (j 1).val
      omega
  rw [h0, h1]
  rfl

/-- An index of the output array is in point `t`'s block iff each coordinate is in the block's range on its axis. -/
theorem mem_block (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- THE BLOCKS TILE THE ARRAY: row `r` lies in the block of the point whose block index is `r / 512`. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 4096 ≤ (i 1).val ∧ (i 1).val < win0_2.index t (1 : Fin 2) * 4096 + 4096
    omega

/-- THE OUTPUT ARRAY AFTER THE REGION is `addRowFlat` of the merged input and the table as the region finds them. -/
theorem final (c : Dev nD) :
    (dats m 0 c).arrAt 2 cfg0.N = addRowFlat (V m c main_v0) (V m c main_arg1) :=
  (dats m 0 c).arrAt_eq_of_cover 2 _ (fun t _ => flushed_eq m c t) covered

end Cert.KernelIdeal.Blocks

end
-- ==== Proof.Host.lean ====
/-
  The host lines around the region.

  Before the region one `reshape` merges the two leading axes of `x`: the region finds its first window's array at
  the row-major recast of `x` to `[16384, 4096]`.  After the region one `reshape` splits them again: the program's
  result is the row-major recast to `[4, 4096, 4096]` of whatever the region left in its output array.
-/
import proofs.«117584_g19000935317804_cont_8to1_1178_1_alg».proof.Proof.Gen.KernelIdeal.Frame
import Idealize.ShloMosaic.Lib.StableHlo.Run
import Idealize.ShloMosaic.Lib.Pipeline.FrameSuffix

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- THE REGION'S FIRST INPUT is `x` with its two leading axes merged. -/
theorem merged_eq (c : Dev nD) :
    (V m c main_v0 : FVec F S16384x4096 .f32)
      = shapeCast S16384x4096 (m ((c : Thread nD τ).loc main_arg0)) shapeCasts_S4x4096x4096_S16384x4096 := by
  show StableHlo.after hostOps0 (fun b => m (c, b)) (Proc.devRef .tc main_v0) = _
  after_results
  rfl

/-- THE PROGRAM'S RESULT is the region's output array with its leading axis split: the line after the region reads the
    array the region wrote (window 2's), which the region leaves at `(dats m 0 c).arrAt 2 N`. -/
theorem tail_eq (c : Dev nD) :
    (Pipeline.afterTail₀ cfgs (dats m) 0 (V0 m) [hostOps1] c main_v2 : FVec F S4x4096x4096 .f32)
      = shapeCast S4x4096x4096 ((dats m 0 c).arrAt 2 cfg0.N) shapeCasts_S16384x4096_S4x4096x4096 := by
  unfold Pipeline.afterTail₀
  show StableHlo.after hostOps1 _ (Proc.devRef .tc main_v2) = _
  after_results
  have hA : Pipeline.withArrays (cfgs 0).spec c (V0 m c) (fun w => (dats m 0 c).arrAt w (cfgs 0).N)
      (Proc.devRef .tc main_v1) = (dats m 0 c).arrAt 2 cfg0.N :=
    Pipeline.withArrays_arr spec0 launch0.win.arr_inj c _ _ 2
  rw [hA]
  rfl

end Cert.KernelIdeal.Host

end
-- ==== Proof.Merge.lean ====
/-
  Merging the two leading axes, adding a per-column term, and unmerging is adding the per-column term.

  A reshape keeps the row-major order of the elements.  `[4, 4096, 4096]` to `[16384, 4096]` sends `(b, s, e)` to
  `(4096·b + s, e)`: the last axis is untouched.  `addRowFlat` adds to each element a term that depends on its
  column `e` only, so doing it on the merged layout and reshaping back is `addRow` on the original layout.
-/
import proofs.«117584_g19000935317804_cont_8to1_1178_1_alg».proof.Proof.Spec
import Idealize.ShloMosaic.Lib.Pipeline.Value
import Idealize.ShloMosaic.Lib.ValueIdx

noncomputable section

namespace Cert.AddRow

open Idealize.ShloMosaic Idealize.ShloMosaic.ValueIdx

/-- The merged row of `(b, s)`: `4096·b + s`, below `16384`. -/
abbrev mergedRow (b : Fin 4) (s : Fin 4096) : Fin 16384 := ⟨b.val * 4096 + s.val, by omega⟩

/-- `(b, s, e)` and `(4096·b + s, e)` have the same row-major position. -/
theorem rowMajor_merged (b : Fin 4) (s : Fin 4096) (e : Fin 4096) :
    ((⟨2, ![16384, 4096]⟩ : Shape).rowMajor (ix2 (mergedRow b s) e)).val
      = ((⟨3, ![4, 4096, 4096]⟩ : Shape).rowMajor (ix3 b s e)).val := by
  rw [Shape.rowMajor_val_two, Shape.rowMajor_val_three]
  rfl

/-- THE SANDWICH: reshape to `[16384, 4096]`, add row 0 of the table times the constant to every row, reshape back —
    that is `addRow`. -/
theorem unmerge_addRowFlat_merge (x : (⟨3, ![4, 4096, 4096]⟩ : Shape).Idx → EReal) (emb : (⟨2, ![64, 4096]⟩ : Shape).Idx → EReal)
    (h1 : (⟨3, ![4, 4096, 4096]⟩ : Shape).ShapeCasts ⟨2, ![16384, 4096]⟩)
    (h2 : (⟨2, ![16384, 4096]⟩ : Shape).ShapeCasts ⟨3, ![4, 4096, 4096]⟩) :
    shapeCast (⟨3, ![4, 4096, 4096]⟩ : Shape) (addRowFlat (shapeCast (⟨2, ![16384, 4096]⟩ : Shape) x h1) emb) h2 = addRow x emb := by
  funext i
  obtain ⟨b, s, e, rfl⟩ : ∃ (b : Fin 4) (s : Fin 4096) (e : Fin 4096), i = ix3 b s e := ⟨i 0, i 1, i 2, eq_ix3 i⟩
  rw [shapeCast_apply _ h2 (ix3 b s e) (ix2 (mergedRow b s) e) (rowMajor_merged b s e)]
  unfold addRowFlat addRow
  rw [shapeCast_apply x h1 (ix2 (mergedRow b s) e) (ix3 b s e) (rowMajor_merged b s e).symm]

end Cert.AddRow

end
-- ==== Proof.KernelRun.lean ====
/-
  The kernel's run, read as a value.

  The generated frame run ends with every array of the region at what the region's proof data compute and every other
  buffer at what the line after the region leaves.  The result buffer is that line's: the region's output array with
  its leading axis split.  The output array is `addRowFlat` of the merged `x` and the table (the blocks tile it), the
  merged `x` is the launched `x` recast, and the table is as launched; merging, adding a per-column term and splitting
  again is `addRow`.  So the result is `addRow` of the two launched argument arrays, which end unchanged.
-/
import proofs.«117584_g19000935317804_cont_8to1_1178_1_alg».proof.Proof.Blocks
import proofs.«117584_g19000935317804_cont_8to1_1178_1_alg».proof.Proof.Host
import proofs.«117584_g19000935317804_cont_8to1_1178_1_alg».proof.Proof.Merge

noncomputable section

namespace Cert.KernelIdeal.KernelRun

open Cert.KernelIdeal Cert.KernelIdeal.Gen Cert.AddRow
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After the frame run the result buffer holds `addRow` of the launched arguments. -/
theorem result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v2)
      = addRow (m ((c.tc : Thread nD τ).loc main_arg0)) (m ((c.tc : Thread nD τ).loc main_arg1)) := by
  refine ((h c).2 main_v2 (Pipeline.mem_restRefs_of main_v2 (by decide) (by decide))).trans ?_
  rw [Host.tail_eq, Blocks.final, Host.merged_eq, V_main_arg1]
  exact unmerge_addRowFlat_merge _ _ _ _

/-- After the frame run `x` is as launched: no window stages it and the line after the region does not write it. -/
theorem kept_x (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).2 main_arg0 (Pipeline.mem_restRefs_of main_arg0 (by decide) (by decide))).trans (W_main_arg0 m (dats m) c)

/-- After the frame run the table is as launched: an input window stages it and never writes it back. -/
theorem kept_table (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

/-- Every weakly fair execution of the kernel's program terminates with its result at `addRow` of the argument arrays
    and the argument arrays unchanged. -/
theorem run : θ_run defs (onTc (τ := τ) (main (F := Ideal))) ⟨m, fun _ => 0, ρ⟩ fun r => ∀ c : Dev nD,
      r.2.mem ((c.tc : Thread nD τ).loc main_v2)
        = addRow (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨result m r h c, kept_x m r h c, kept_table m r h c⟩) (run_main m ρ)

end Cert.KernelIdeal.KernelRun

end
-- ==== Proof.RefRun.lean ====
/-
  The reference's @main read as a straight line of host operations.

  The reference computes `x + take(emb, 0, axis=0) * 1`.  jax outlines `take` into a private function, which in turn
  calls an outlined `where`; here both bodies are listed at their call sites over the buffers the call names, so @main is
  one list of 26 operations.  In order: the constant index 0; the wrap of a negative index (0 < 0 selects 0 + 64, else 0);
  the index as a one-element vector; the range test 0 ≤ i ≤ 63 reduced by `and` to one flag; the gather of one row of
  the table at the clamped index; the flag broadcast along the row and used to select between the gathered row and a
  fill value; then the row times the constant 1, broadcast over the two leading axes, added to `x`.

  `run` says: every weakly fair execution of the list terminates, the result buffer holds `refTerm` of the two
  argument arrays, and the arguments end unchanged.
-/
import proofs.«117584_g19000935317804_cont_8to1_1178_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The index vector the gather reads: the constant 0, wrapped if negative, as a one-element vector. -/
def takeIndex : IVec S1 32 :=
  broadcastInDim S1 ![] bcast_S_S1
    (select (cmpi .slt (constantI S_ 32 0#32) (constantI S_ 32 0#32))
      (addi (constantI S_ 32 0#32) (constantI S_ 32 64#32)) (constantI S_ 32 0#32))

/-- The one flag saying the index is inside the table: 0 ≤ i and i ≤ 63, reduced by `and` over the one element. -/
def inRange : IVec S_ 1 :=
  Host.reduce IntOp.andi
    (andi (cmpi .sge takeIndex (broadcastInDim S1 ![] bcast_S_S1 (constantI S_ 32 0#32))) (cmpi .sle takeIndex (constantI S1 32 63#32)))
    (constantI S_ 1 1#1) reducesTo_S1_S_d0 h_S_

/-- What the reference leaves in its result buffer, as a term of its two argument arrays. -/
def refTerm (x : FVec F S4x4096x4096 .f32) (e : FVec F S64x4096 .f32) : FVec F S4x4096x4096 .f32 :=
  addf x
    (broadcastInDim S4x4096x4096 ![0, 1, 2] bcast_S1x1x4096_S4x4096x4096_0_1_2
      (broadcastInDim S1x1x4096 ![2] bcast_S4096_S1x1x4096_2
        (mulf
          (select (broadcastInDim S4096 ![] bcast_S_S4096 inRange)
            (Host.gather gather_S64x4096_S1_S4096_0_0_n_n_0_0_14096 e takeIndex)
            (broadcastInDim S4096 ![] bcast_S_S4096 (constant S_ .f32 0x7FC00000#32)))
          (broadcastInDim S4096 ![] bcast_S_S4096 (constant S_ .f32 0x3F800000#32)))))

/-- @main's 26 operations, in order, the outlined functions' bodies at their call sites. -/
abbrev ops : List (HloOp τ sig (Elt F)) :=
  [ nullary main_c (constantI S_ 32 0#32),
    TRef.nullary main_call0.c (constantI S_ 32 0#32),
    TRef.binary (.of main_c) main_call0.c main_call0.v0 (cmpi .slt),
    TRef.nullary main_call0.c_0 (constantI S_ 32 64#32),
    TRef.binary (.of main_c) main_call0.c_0 main_call0.v1 addi,
    TRef.ternary main_call0.v0 main_call0.v1 (.of main_c) main_call0.call0.v0 select,
    TRef.unary main_call0.call0.v0 main_call0.v3 (broadcastInDim S1 ![] bcast_S_S1),
    TRef.nullary main_call0.c_1 (constantI S1 32 63#32),
    TRef.nullary main_call0.c_2 (constantI S_ 32 0#32),
    TRef.unary main_call0.c_2 main_call0.v4 (broadcastInDim S1 ![] bcast_S_S1),
    TRef.binary main_call0.v3 main_call0.v4 main_call0.v5 (cmpi .sge),
    TRef.binary main_call0.v3 main_call0.c_1 main_call0.v6 (cmpi .sle),
    TRef.binary main_call0.v5 main_call0.v6 main_call0.v7 andi,
    TRef.nullary main_call0.c_3 (constantI S_ 1 1#1),
    TRef.binary main_call0.v7 main_call0.c_3 main_call0.v8 (fun x v => Host.reduce IntOp.andi x v reducesTo_S1_S_d0 h_S_),
    TRef.binary (.of main_arg1) main_call0.v3 main_call0.v9 (fun x i => Host.gather gather_S64x4096_S1_S4096_0_0_n_n_0_0_14096 x i),
    TRef.unary main_call0.v8 main_call0.v10 (broadcastInDim S4096 ![] bcast_S_S4096),
    TRef.nullary main_call0.cst (constant S_ .f32 0x7FC00000#32),
    TRef.unary main_call0.cst main_call0.v11 (broadcastInDim S4096 ![] bcast_S_S4096),
    TRef.ternary main_call0.v10 main_call0.v9 main_call0.v11 main_call0.v12 select,
    nullary main_cst (constant S_ .f32 0x3F800000#32),
    unary main_cst main_v1 (broadcastInDim S4096 ![] bcast_S_S4096 : (⟨S_, .f32⟩ : BufTy).Contents (Elt F) → (⟨S4096, .f32⟩ : BufTy).Contents (Elt F)),
    binary main_v0 main_v1 main_v2 (mulf : (⟨S4096, .f32⟩ : BufTy).Contents (Elt F) → (⟨S4096, .f32⟩ : BufTy).Contents (Elt F) → (⟨S4096, .f32⟩ : BufTy).Contents (Elt F)),
    unary main_v2 main_v3 (broadcastInDim S1x1x4096 ![2] bcast_S4096_S1x1x4096_2 : (⟨S4096, .f32⟩ : BufTy).Contents (Elt F) → (⟨S1x1x4096, .f32⟩ : BufTy).Contents (Elt F)),
    unary main_v3 main_v4 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    binary main_arg0 main_v4 main_v5 (addf : (⟨S4x4096x4096, .f32⟩ : BufTy).Contents (Elt F) → (⟨S4x4096x4096, .f32⟩ : BufTy).Contents (Elt F) → (⟨S4x4096x4096, .f32⟩ : BufTy).Contents (Elt F)) ]

set_option maxRecDepth 1024 in
/-- @main is that straight line: the two outlined bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., nullary_bufs_sub .., binary_bufs_sub .., ternary_bufs_sub ..,
    unary_bufs_sub .., nullary_bufs_sub .., nullary_bufs_sub .., unary_bufs_sub .., binary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., unary_bufs_sub ..,
    unary_bufs_sub .., binary_bufs_sub ..⟩

attribute [local irreducible] Host.reduce Host.gather in
set_option maxRecDepth 8192 in
/-- The list's fold read at the result buffer is `refTerm` of the arguments: each operation's result decides
    whether the buffer read is the one it writes. -/
theorem out_eq (V : Valuation τ sig (Elt F)) :
    after ops V (main_v5 : DevRef τ sig) = refTerm (V (main_arg0 : DevRef τ sig)) (V (main_arg1 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- Every weakly fair execution of the reference terminates with its result at `refTerm` of the argument arrays
    and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.HostRun

end
-- ==== Proof.LibTakeRow.lean ====
/-
  A one-row gather read at an index.

  `jnp.take(x, i, axis=0)` of a table `x : [N, C]` at ONE integer `i` lowers to a `stablehlo.gather` whose start
  indices are the one-element vector `[i]` (index_vector_dim 0, so there is no batch axis), with offset_dims `[0]`,
  collapsed_slice_dims `[0]`, start_index_map `[0]` and slice_sizes `[1, C]`: the result is a row, `[C]`.
  Read at column `q` it is `x` at row `i` — the start index read as a signed integer and clamped into `[0, N − 1]`,
  as the gather clamps every start index — and column `q`.
-/
import Idealize.ShloMosaic.PureOps
import Idealize.ShloMosaic.PureOps.Reduce
import Idealize.ShloMosaic.Lib.ValueIdx

noncomputable section

namespace Idealize.ShloMosaic.TakeRow

open Idealize.ShloMosaic Idealize.ShloMosaic.ValueIdx

variable {α : Type}

/-- Those dimension numbers for a table `[N, C]`, start indices `[1]` and a result `[C]`; their conditions `wf` are
    decided on a program's literal shapes. -/
abbrev takeRowDims (N C : Nat) (wf : GatherDims.WF ⟨2, ![N, C]⟩ ⟨1, ![1]⟩ ⟨1, ![C]⟩ [0] [0] [] [0] [] 0 ![1, C]) :
    GatherDims ⟨2, ![N, C]⟩ ⟨1, ![1]⟩ ⟨1, ![C]⟩ where
  offsetDims := [0]
  collapsedSliceDims := [0]
  operandBatchingDims := []
  startIndicesBatchingDims := []
  startIndexMap := [0]
  indexVectorDim := 0
  sliceSizes := ![1, C]
  wf := wf

/-- THE ROW GATHER READ AT COLUMN `q`: the table at the start index (read signed, clamped into `[0, N − 1]`) and `q`. -/
theorem gather_takeRow_apply {N C w : Nat} (hN : 0 < N)
    (wf : GatherDims.WF ⟨2, ![N, C]⟩ ⟨1, ![1]⟩ ⟨1, ![C]⟩ [0] [0] [] [0] [] 0 ![1, C])
    (x : (⟨2, ![N, C]⟩ : Shape).Idx → α) (idx : IVec ⟨1, ![1]⟩ w) (q : Fin C) :
    Host.gather (takeRowDims N C wf) x idx (ix1 q)
      = x (ix2 ⟨min (idx (ix1 (0 : Fin 1))).toInt.toNat (N - 1), by omega⟩ q) := by
  unfold Host.gather
  congr 1
  funext a
  refine Fin.ext ?_
  show (takeRowDims N C wf).start (ix1 q) idx a + (takeRowDims N C wf).batchCoord (ix1 q) a
      + (takeRowDims N C wf).offCoord (ix1 q) a = _
  rw [GatherDims.batchCoord_eq_zero _ _ _ List.not_mem_nil]
  match a with
  | ⟨0, _⟩ =>
    -- the collapsed axis: the clamped start index, no offset
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (takeRowDims N C wf).startIndexMap from List.mem_singleton.mpr rfl)]
    have hsi : (takeRowDims N C wf).siIdx (ix1 q) ⟨List.idxOf (⟨0, by decide⟩ : Fin 2) (takeRowDims N C wf).startIndexMap,
        List.idxOf_lt_length_iff.2 (List.mem_singleton.mpr rfl)⟩ = ix1 (0 : Fin 1) := by
      funext b; refine Fin.ext ?_
      match b with
      | ⟨0, _⟩ => rfl
    rw [hsi]
    rfl
  | ⟨1, _⟩ =>
    -- the kept axis: no start index, the result's coordinate as the offset
    unfold GatherDims.start
    have h10 : (⟨1, by decide⟩ : Fin 2) ≠ 0 := by decide
    rw [dif_neg (show (⟨1, by decide⟩ : Fin 2) ∉ (takeRowDims N C wf).startIndexMap from
      fun h => h10 (List.mem_singleton.mp h))]
    simp only [Nat.zero_add]
    unfold GatherDims.offCoord
    rw [dif_pos (show (⟨1, by decide⟩ : Fin 2) ∈ (takeRowDims N C wf).sKept from
      (GatherDims.mem_sKept _ _).mpr ⟨fun h => h10 (List.mem_singleton.mp h), List.not_mem_nil⟩)]
    rfl

/-! ## The range flag

`jnp.take` in its default mode also tests the index against the table's bounds and reduces the tests by `and`
to one flag. When every test is one, so is the flag. -/

/-- A left fold by `and` from one over words that are all one is one. -/
theorem foldl_andi_ones {ι : Type} (f : ι → BitVec 1) (l : List ι) (hf : ∀ i ∈ l, f i = 1#1) :
    l.foldl (fun r i => IntOp.andi r (f i)) 1#1 = 1#1 := by
  induction l with
  | nil => rfl
  | cons a l ih =>
    rw [List.foldl_cons, hf a List.mem_cons_self, show IntOp.andi (1#1 : BitVec 1) 1#1 = 1#1 by decide]
    exact ih fun i hi => hf i (List.mem_cons_of_mem _ hi)

/-- An `and`-reduce, from an initial value that is one, of an array of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun i _ => hx i

end Idealize.ShloMosaic.TakeRow

end
-- ==== Proof.RefValue.lean ====
/-
  The reference's result is the specification.

  The index the gather reads is the constant 0: it is not negative, so the wrap keeps it.  Both range tests
  (0 ≤ 0 and 0 ≤ 63) are one, so their `and` is one and the `select` keeps the gathered row; the fill value on
  the other branch is never read.  The gather's start index 0, clamped into [0, 63], is 0: the row is row 0 of the
  table.  The rest is read at an index `(b, s, e)`: the two broadcasts drop `b` and `s`, the product is
  `emb[0, e] · one`, the sum adds `x[b, s, e]`.
-/
import proofs.«117584_g19000935317804_cont_8to1_1178_1_alg».proof.Proof.RefRun
import proofs.«117584_g19000935317804_cont_8to1_1178_1_alg».proof.Proof.Spec
import proofs.«117584_g19000935317804_cont_8to1_1178_1_alg».proof.Proof.LibTakeRow
import Idealize.ShloMosaic.Lib.Pipeline.Value
import Idealize.ShloMosaic.Lib.IdealHost
import Idealize.ShloMosaic.Lib.ValueIdx

noncomputable section

namespace Cert.ReferenceIdeal.RefValue

open Cert.ReferenceIdeal Cert.ReferenceIdeal.Gen Cert.ReferenceIdeal.HostRun Cert.AddRow
open Idealize.ShloMosaic Idealize.ShloMosaic.ValueIdx Idealize.ShloMosaic.TakeRow

/-- The index vector is `[0]`: 0 is not below 0, so the wrap by the table's height is not taken. -/
theorem takeIndex_apply (j : S1.Idx) : takeIndex j = 0#32 := by
  unfold takeIndex
  rw [broadcastInDim_scalar_apply]
  rfl

/-- The index is inside the table: both bounds hold, and the `and` of ones is one. -/
theorem inRange_apply (j : S_.Idx) : inRange j = 1#1 := by
  unfold inRange
  refine reduce_andi_ones _ _ _ _ (fun i => ?_) rfl j
  show IntOp.andi (IntOp.cmpi .sge (takeIndex i) (broadcastInDim S1 ![] bcast_S_S1 (constantI S_ 32 0#32) i))
      (IntOp.cmpi .sle (takeIndex i) (constantI S1 32 63#32 i)) = 1#1
  rw [takeIndex_apply, broadcastInDim_scalar_apply]
  show IntOp.andi (IntOp.cmpi .sge (0#32) (0#32)) (IntOp.cmpi .sle (0#32) (63#32)) = 1#1
  decide

/-- The gathered row at column `q` is row 0 of the table at `q`: the start index 0 clamps to 0. -/
theorem gather_apply (e : FVec Ideal S64x4096 .f32) (q : Fin 4096) :
    Host.gather gather_S64x4096_S1_S4096_0_0_n_n_0_0_14096 e takeIndex (ix1 q) = e (ix2 (0 : Fin 64) q) := by
  have hd : gather_S64x4096_S1_S4096_0_0_n_n_0_0_14096
      = takeRowDims 64 4096 gather_S64x4096_S1_S4096_0_0_n_n_0_0_14096_wf := rfl
  rw [hd, gather_takeRow_apply (by decide)]
  refine congrArg e (congrArg (fun r => ix2 r q) (Fin.ext ?_))
  show min (takeIndex (ix1 (0 : Fin 1))).toInt.toNat (64 - 1) = 0
  rw [takeIndex_apply]
  rfl

/-- THE REFERENCE IS THE SPECIFICATION: at `(b, s, e)` both are `x[b, s, e] + emb[0, e] · one`. -/
theorem refTerm_eq (x : FVec Ideal S4x4096x4096 .f32) (e : FVec Ideal S64x4096 .f32) :
    refTerm (F := Ideal) x e = addRow x e := by
  funext i
  obtain ⟨b, s, q, rfl⟩ : ∃ (b : Fin 4) (s : Fin 4096) (q : Fin 4096), i = ix3 b s q := ⟨i 0, i 1, i 2, eq_ix3 i⟩
  unfold refTerm addRow row
  rw [addf_apply]
  congr 1
  rw [broadcastInDim_apply ![0, 1, 2] bcast_S1x1x4096_S4x4096x4096_0_1_2 _ (ix3 b s q) (ix3 (0 : Fin 1) (0 : Fin 1) q)
      (fun a => by match a with | ⟨0, _⟩ => rfl | ⟨1, _⟩ => rfl | ⟨2, _⟩ => rfl),
    broadcastInDim_apply ![2] bcast_S4096_S1x1x4096_2 _ (ix3 (0 : Fin 1) (0 : Fin 1) q) (ix1 q)
      (fun a => by match a with | ⟨0, _⟩ => rfl),
    mulf_apply, select_apply, broadcastInDim_scalar_apply, inRange_apply, select_one, gather_apply,
    broadcastInDim_scalar_apply, constant_apply]

end Cert.ReferenceIdeal.RefValue

end
-- ==== Proof.lean ====
/-
  The certificate: a streaming row add against its jnp reference.

  Both programs compute, for `x : [4, 4096, 4096]` and a table `emb : [64, 4096]`,
      out[b, s, e] = x[b, s, e] + emb[0, e] · one,
  `one` the value of the 32-bit pattern `0x3F800000`, which both carry and neither evaluates (Proof/Spec.lean).

  The kernel merges the two leading axes of `x` on the host, streams 512-row blocks of the merged array through a
  32-point grid with the whole table resident, adds row 0 of the table (times the constant) to every row of the block,
  and splits the leading axis again on the host.  Its frame is the generated one; its value is read off that frame's run:
  the body's arithmetic at an index (Proof/Payload.lean), the written blocks as blocks of one whole-array function and
  their cover (Proof/Blocks.lean), the two host reshapes (Proof/Host.lean), the reshapes cancelling around a per-column
  term (Proof/Merge.lean), assembled in Proof/KernelRun.lean.

  The reference takes row 0 of the table with `jnp.take` — an index wrap, a range test and a gather of one row, here at
  the constant index 0 — multiplies by the constant, broadcasts and adds.  Its run is the straight line of its 26 host
  operations (Proof/RefRun.lean); read at an index it is the same function (Proof/RefValue.lean, over the one-row gather
  of Proof/LibTakeRow.lean).

  The two sides are ONE expression of the extended reals, so no algebraic law joins them and the precondition (finite
  inputs) is never opened.  The idealization rewrote nothing, so `preserves` is `True`.
-/
import proofs.«117584_g19000935317804_cont_8to1_1178_1_alg».proof.Defs
import proofs.«117584_g19000935317804_cont_8to1_1178_1_alg».proof.Proof.Gen.Kernel
import proofs.«117584_g19000935317804_cont_8to1_1178_1_alg».proof.Proof.Gen.Kernel.Frame
import proofs.«117584_g19000935317804_cont_8to1_1178_1_alg».proof.Proof.Gen.KernelIdeal
import proofs.«117584_g19000935317804_cont_8to1_1178_1_alg».proof.Proof.Gen.KernelIdeal.Frame
import proofs.«117584_g19000935317804_cont_8to1_1178_1_alg».proof.Proof.Gen.ReferenceIdeal
import proofs.«117584_g19000935317804_cont_8to1_1178_1_alg».proof.Proof.Gen.Pre_finite_inputs
import proofs.«117584_g19000935317804_cont_8to1_1178_1_alg».proof.Proof.KernelRun
import proofs.«117584_g19000935317804_cont_8to1_1178_1_alg».proof.Proof.RefRun
import proofs.«117584_g19000935317804_cont_8to1_1178_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run as a straight line of host operations, the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories agreeing on `x` and the table, the kernel's result is `addRow` of them (its run, read) and so is the
    reference's (its run, read at an index). -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2]
  exact Cert.ReferenceIdeal.RefValue.refTerm_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
